-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_arg4 : FVec F S2048x4096 .f32) (main_arg5 : FVec F S2048x4096 .f32) (main_arg6 : FVec F S2048x4096 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048x4096 .f32 := Host.absf main_arg6
  let main_cst_10 : FVec F S_ .f32 := constant S_ .f32 0x7F800000#32
  let main_v30 : FVec F S2048x4096 .f32 := broadcastInDim S2048x4096 ![] bcast_S_S2048x4096 main_cst_10
  let main_v31 : IVec S2048x4096 1 := cmpf .olt main_v29 main_v30
  let main_c_11 : IVec S_ 1 := constantI S_ 1 1#1
  let main_v32 : IVec S_ 1 := (fun x v => Host.reduce IntOp.andi x v reducesTo_S2048x4096_S_d0_1 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048x4096 .f32) (main_arg5 : FVec F S2048x4096 .f32) (main_arg6 : FVec F S2048x4096 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_v13 main_v16
-- ==== Kernel.lean ====
abbrev S4096x2048 : Shape := ⟨2, ![4096, 2048]⟩
abbrev S2048x4096 : Shape := ⟨2, ![2048, 4096]⟩
abbrev S2048x256 : Shape := ⟨2, ![2048, 256]⟩
abbrev S512x256 : Shape := ⟨2, ![512, 256]⟩
abbrev S2048x512 : Shape := ⟨2, ![2048, 512]⟩

abbrev nBuf : Space → Nat
  | .hbm => 8
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S4096x2048, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S2048x512, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c15_i32 : BitVec 32 := 15#32
  let v40 : BitVec 1 := Scalar.cmpi .eq arg2 c15_i32
  let v41 : BitVec 32 := Scalar.extui v40
  let c0_i32_31 : BitVec 32 := 0#32
  let v42 : BitVec 1 := Scalar.cmpi .ne v41 c0_i32_31
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg2 c7_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  dot_S2048x256_S512x256_S2048x512_1_1_0_0_n_n_wf : DotDims.WF S2048x256 S512x256 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x2048.size a
  hwx0_0 : ∀ i : grid0.Coords, EltTy.bits .f32 = 32 ∨ (Rect.block (s := S4096x2048) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x2048.size a
  hwx0_1 : ∀ i : grid0.Coords, EltTy.bits .f32 = 32 ∨ (Rect.block (s := S4096x2048) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S2048x4096.size a
  hwx0_2 : ∀ i : grid0.Coords, EltTy.bits .f32 = 32 ∨ (Rect.block (s := S2048x4096) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S2048x4096.size a
  hwx0_3 : ∀ i : grid0.Coords, EltTy.bits .f32 = 32 ∨ (Rect.block (s := S2048x4096) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S2048x4096.size a
  hwx0_4 : ∀ i : grid0.Coords, EltTy.bits .f32 = 32 ∨ (Rect.block (s := S2048x4096) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S2048x4096.size a
  hwx0_5 : ∀ i : grid0.Coords, EltTy.bits .f32 = 32 ∨ (Rect.block (s := S2048x4096) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S4096x2048.size a
  hwx0_6 : ∀ i : grid0.Coords, EltTy.bits .f32 = 32 ∨ (Rect.block (s := S4096x2048) S2048x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S4096x2048.size a
  hwx0_7 : ∀ i : grid0.Coords, EltTy.bits .f32 = 32 ∨ (Rect.block (s := S4096x2048) S2048x512.size (cc0_transform_7 i) (hinb0_7 i)).WholeWords (EltTy.packing .f32)

variable [Facts₀]

def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf

abbrev win0_0 : Pipeline.Window sig grid0 :=
  Pipeline.Window.ofSpec (Memref.whole main_arg1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S2048x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2048x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x4096 : Shape := ⟨2, ![2048, 4096]⟩
abbrev S4096x4096 : Shape := ⟨2, ![4096, 4096]⟩
abbrev S8192x4096 : Shape := ⟨2, ![8192, 4096]⟩
abbrev S4096x8192 : Shape := ⟨2, ![4096, 8192]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S4096x4096, .f32⟩
  | .hbm, ⟨8, _⟩ => ⟨S8192x4096, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S2048x4096_S2048x4096_S2048x4096_S2048x4096_S8192x4096_d0 : Shape.Concatenates [S2048x4096, S2048x4096, S2048x4096, S2048x4096] S8192x4096 0
  transposes_S8192x4096_S4096x8192_1_0 : S8192x4096.Transposes [1, 0] S4096x8192
  bcast_S_S4096x8192 : S_.BroadcastsInDim S4096x8192 (![] : Fin 0 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.SumBlocks.lean ====
/-
  A sum over 4096 consecutive naturals is the sum, over 16 consecutive stretches of 256, of each stretch's sum:
  commutativity and associativity of the addition only, so it holds in any commutative monoid — in particular on
  the extended reals, where no infinity has to be excluded.
-/
import Mathlib.Algebra.BigOperators.Fin
import Mathlib.Logic.Equiv.Fin.Basic

namespace Cert.SumBlocks

/-- Position `q` of 4096 is position `j` of stretch `k`, `q = 256 k + j`: the sum over all positions regrouped
    stretch by stretch. -/
theorem sum_eq_sum_stretches {M : Type*} [AddCommMonoid M] (f : ℕ → M) :
    ∑ q : Fin 4096, f q.val = ∑ k ∈ Finset.range 16, ∑ j : Fin 256, f (k * 256 + j.val) := by
  rw [Finset.sum_range (fun k => ∑ j : Fin 256, f (k * 256 + j.val))]
  rw [← Equiv.sum_comp (finProdFinEquiv : Fin 16 × Fin 256 ≃ Fin 4096) (fun q => f q.val)]
  rw [Fintype.sum_prod_type]
  refine Finset.sum_congr rfl fun k _ => Finset.sum_congr rfl fun j _ => ?_
  congr 1
  rw [finProdFinEquiv_apply_val]
  show j.val + 256 * k.val = k.val * 256 + j.val
  omega

end Cert.SumBlocks
-- ==== Proof.Spec.lean ====
/-
  The value both programs compute at the ideal instance: one step of an LSTM cell whose four gates are all
  logistic. With `h` (4096 × 2048) and `x` (4096 × 2048) laid side by side as the 4096 × 4096 matrix `[h | x]`,
  and a weight matrix `W` (2048 × 4096), the gate's pre-activation at row `r`, unit `n` is the inner product
  `∑ q, [h | x] r q · W n q`; the cell is
      `logistic(gate W_ol) · tanh(logistic(gate W_fg) · c + logistic(gate W_ig) · logistic(gate W_og))`.
  The inner product is written here as the kernel accumulates it — stretch by stretch, 16 stretches of 256
  positions — and `gate_eq_sum` says that this is the plain sum over the 4096 positions.
-/
import Idealize.ShloMosaic.PureOps.Ideal
import Idealize.ShloMosaic.PureOps.Ideal.Laws
import Idealize.ShloMosaic.Lib.ValueIdx
import proofs.«100656_j57303453663323_2_alg».proof.Proof.SumBlocks

noncomputable section

namespace Cert.Spec

open Idealize.ShloMosaic Idealize.ShloMosaic.ValueIdx

/-- An `a × b` matrix of extended reals. -/
abbrev Mat (a b : ℕ) : Type := (⟨2, ![a, b]⟩ : Shape).Idx → EReal

/-- Entry `(r, q)` of a matrix; `0` outside it (never consulted: every use is inside). -/
def at2 {a b : ℕ} (A : Mat a b) (r q : ℕ) : EReal :=
  if h : r < a ∧ q < b then A (ix2 ⟨r, h.1⟩ ⟨q, h.2⟩) else 0

theorem at2_of_lt {a b : ℕ} (A : Mat a b) (r q : ℕ) (hr : r < a) (hq : q < b) :
    at2 A r q = A (ix2 ⟨r, hr⟩ ⟨q, hq⟩) := by
  unfold at2; rw [dif_pos ⟨hr, hq⟩]

theorem at2_ix2 {a b : ℕ} (A : Mat a b) (r : Fin a) (q : Fin b) : at2 A r.val q.val = A (ix2 r q) :=
  at2_of_lt A r.val q.val r.isLt q.isLt

/-- Row `r` of `[h | x]`: positions below 2048 read `h`, the others `x` 2048 to the left. -/
def hx (x h : Mat 4096 2048) (r q : ℕ) : EReal := if q < 2048 then at2 h r q else at2 x r (q - 2048)

/-- The part of the inner product that stretch `k` (positions `256 k … 256 k + 255`) contributes. -/
def stretch (x h : Mat 4096 2048) (W : Mat 2048 4096) (r n k : ℕ) : EReal :=
  ∑ j : Fin 256, hx x h r (k * 256 + j.val) * at2 W n (k * 256 + j.val)

/-- The inner product after the first `K` stretches. -/
def upTo (x h : Mat 4096 2048) (W : Mat 2048 4096) (r n K : ℕ) : EReal :=
  ∑ k ∈ Finset.range K, stretch x h W r n k

/-- A gate's pre-activation: all 16 stretches. -/
def gate (x h : Mat 4096 2048) (W : Mat 2048 4096) (r n : ℕ) : EReal := upTo x h W r n 16

theorem upTo_succ (x h : Mat 4096 2048) (W : Mat 2048 4096) (r n K : ℕ) :
    upTo x h W r n (K + 1) = upTo x h W r n K + stretch x h W r n K :=
  Finset.sum_range_succ _ _

theorem upTo_one (x h : Mat 4096 2048) (W : Mat 2048 4096) (r n : ℕ) :
    upTo x h W r n 1 = stretch x h W r n 0 := by
  unfold upTo; rw [Finset.sum_range_one]

/-- Summed stretch by stretch or position by position: one sum (addition is commutative and associative on the
    extended reals; nothing else is used). -/
theorem gate_eq_sum (x h : Mat 4096 2048) (W : Mat 2048 4096) (r n : ℕ) :
    gate x h W r n = ∑ q : Fin 4096, hx x h r q.val * at2 W n q.val := by
  unfold gate upTo stretch
  exact (Cert.SumBlocks.sum_eq_sum_stretches (fun q => hx x h r q * at2 W n q)).symm

/-- The cell's output from the four pre-activations and the cell state. -/
def combine (gf gi go gl c : EReal) : EReal :=
  Ideal.logistic gl * Ideal.tanh (Ideal.logistic gf * c + Ideal.logistic gi * Ideal.logistic go)

/-- The new hidden state, entry by entry. -/
def cell (x h c : Mat 4096 2048) (Wf Wi Wo Wl : Mat 2048 4096) : Mat 4096 2048 := fun i =>
  combine (gate x h Wf (i 0).val (i 1).val) (gate x h Wi (i 0).val (i 1).val) (gate x h Wo (i 0).val (i 1).val)
    (gate x h Wl (i 0).val (i 1).val) (c i)

/-- The word of `1.0` is the extended real `1`. -/
theorem ofBits_one_f32 : Ideal.ofBits .f32 0x3F800000#32 = 1 := by
  simp [Ideal.ofBits, Ideal.ieee, -EReal.coe_mul]; norm_num

end Cert.Spec

end
-- ==== Proof.Payload.lean ====
/-
  What one grid point does to an accumulator, and what the last point of a run makes of the four accumulators,
  as values: first as terms over any float instance (the printed payloads are these terms), then read entry by entry
  at the ideal instance.

  One point's update: the accumulator plus the product of the point's activation block (2048 × 256: the block of `h`
  while the reduction coordinate is below 8, the block of `x` from 8 on) with the transpose of the point's weight
  block (512 × 256); entry `(p, n)` gains `∑ j, a p j · w n j`. The change of float format before the product is
  the identity at the ideal instance.
-/
import proofs.«100656_j57303453663323_2_alg».proof.Proof.Gen.KernelIdeal.Skeleton
import proofs.«100656_j57303453663323_2_alg».proof.Proof.Spec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

variable {F : FTy → Type} [FloatOps F]

/-- The product's dimensions: both operands contract their second axis. -/
abbrev D : DotDims S2048x256 S512x256 S2048x512 := dot_S2048x256_S512x256_S2048x512_1_1_0_0_n_n

/-- The accumulators' contents when a run of 16 points starts: all zero words. -/
def zeroBlk : FVec F S2048x512 .f32 := broadcast S2048x512 (Scalar.ofBits .f32 0x00000000#32)

/-- One point's update of an accumulator `acc` by the weight block `w`. -/
def accStep (i : grid0.Coords) (x0 x1 : Vec F S2048x256 .f32) (w : Vec F S512x256 .f32) (acc : Vec F S2048x512 .f32) :
    FVec F S2048x512 .f32 :=
  addf acc (matmul D none (k0_pay8 i x0 x1) (truncf .bf16 w (by decide)) (constant S2048x512 .f32 0x00000000#32))

theorem pay4_eq : k0_pay4 (F := F) = zeroBlk := shapeCast_self _ _
theorem pay5_eq : k0_pay5 (F := F) = zeroBlk := shapeCast_self _ _
theorem pay6_eq : k0_pay6 (F := F) = zeroBlk := shapeCast_self _ _
theorem pay7_eq : k0_pay7 (F := F) = zeroBlk := shapeCast_self _ _

theorem pay11_eq (i : grid0.Coords) (x0 x1 : Vec F S2048x256 .f32) (w : Vec F S512x256 .f32) (acc : Vec F S2048x512 .f32) :
    k0_pay11 i x0 x1 w acc = accStep i x0 x1 w acc := shapeCast_self _ _

theorem pay12_eq (i : grid0.Coords) (x0 x1 : Vec F S2048x256 .f32) (w : Vec F S512x256 .f32) (acc : Vec F S2048x512 .f32) :
    k0_pay12 i x0 x1 w acc = accStep i x0 x1 w acc := shapeCast_self _ _

theorem pay1_eq (i : grid0.Coords) (x0 x1 : Vec F S2048x256 .f32) (w : Vec F S512x256 .f32) (acc : Vec F S2048x512 .f32) :
    k0_pay1 (k0_pay8 i x0 x1) (k0_pay9 w) acc = accStep i x0 x1 w acc := shapeCast_self _ _

theorem pay2_eq (i : grid0.Coords) (x0 x1 : Vec F S2048x256 .f32) (w : Vec F S512x256 .f32) (acc : Vec F S2048x512 .f32) :
    k0_pay2 (k0_pay8 i x0 x1) (k0_pay10 w) acc = accStep i x0 x1 w acc := shapeCast_self _ _

/-! ## Read entry by entry at the ideal instance -/

theorem lhs0 (j : S2048x512.Idx) (q : D.contr.Idx) : (D.lhsIdx j q 0).val = (j 0).val := by
  unfold DotDims.lhsIdx
  rw [dif_neg (show ¬(0 : Fin S2048x256.rank) ∈ D.lhsBatch by decide), dif_pos (show (0 : Fin S2048x256.rank) ∈ D.lhsNonContracting by decide)]
  rfl
theorem lhs1 (j : S2048x512.Idx) (q : D.contr.Idx) : (D.lhsIdx j q 1).val = (q ⟨0, by decide⟩).val :=
  D.lhsIdx_val_of_single rfl j q
theorem rhs0 (j : S2048x512.Idx) (q : D.contr.Idx) : (D.rhsIdx j q 0).val = (j 1).val := by
  unfold DotDims.rhsIdx
  rw [dif_neg (show ¬(0 : Fin S512x256.rank) ∈ D.rhsBatch by decide), dif_pos (show (0 : Fin S512x256.rank) ∈ D.rhsNonContracting by decide)]
  rfl
theorem rhs1 (j : S2048x512.Idx) (q : D.contr.Idx) : (D.rhsIdx j q 1).val = (q ⟨0, by decide⟩).val :=
  D.rhsIdx_val_of_single rfl j q

/-- The product of a 2048 × 256 block with the transpose of a 512 × 256 block, into a zero accumulator, at `(p, n)`:
    the inner product of row `p` of the one with row `n` of the other. -/
theorem matmul_zero_apply (a : FVec Ideal S2048x256 .bf16) (w : FVec Ideal S512x256 .bf16) (p : Fin 2048) (n : Fin 512) :
    matmul D none a w (constant S2048x512 .f32 0x00000000#32) (ix2 p n) = ∑ j : Fin 256, a (ix2 p j) * w (ix2 n j) := by
  simp only [matmul]
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 p n) ((contrEquiv1 D 256 rfl rfl).symm k) = ix2 p k := funext fun a => Fin.ext (by
    match a with
    | ⟨0, _⟩ => exact lhs0 _ _
    | ⟨1, _⟩ => exact (lhs1 _ _).trans hk)
  have er : D.rhsIdx (ix2 p n) ((contrEquiv1 D 256 rfl rfl).symm k) = ix2 n k := funext fun a => Fin.ext (by
    match a with
    | ⟨0, _⟩ => exact rhs0 _ _
    | ⟨1, _⟩ => exact (rhs1 _ _).trans hk)
  rw [el, er]

/-- The activation block a point multiplies: the first operand's while the comparison of the reduction coordinate
    with 8 holds, the second's otherwise; the narrowing to bf16 is the identity here. -/
theorem pay8_apply (i : grid0.Coords) (x0 x1 : Vec Ideal S2048x256 .f32) (y : S2048x256.Idx) :
    k0_pay8 (F := Ideal) i x0 x1 y
      = if Scalar.cmpi .slt (BitVec.ofNat 32 (i 2).val) 8#32 = 1#1 then x0 y else x1 y := by
  unfold k0_pay8
  dsimp only
  rw [truncf_apply]
  unfold Scalar.select
  split
  next h => exact (if_pos h).symm
  next h => exact (if_neg h).symm

/-- One point's update at entry `(p, n)`. -/
theorem accStep_apply (i : grid0.Coords) (x0 x1 : Vec Ideal S2048x256 .f32) (w : Vec Ideal S512x256 .f32)
    (acc : Vec Ideal S2048x512 .f32) (p : Fin 2048) (n : Fin 512) :
    accStep (F := Ideal) i x0 x1 w acc (ix2 p n)
      = acc (ix2 p n) + ∑ j : Fin 256,
          (if Scalar.cmpi .slt (BitVec.ofNat 32 (i 2).val) 8#32 = 1#1 then x0 (ix2 p j) else x1 (ix2 p j)) * w (ix2 n j) := by
  unfold accStep
  rw [addf_apply, matmul_zero_apply]
  refine congrArg (acc (ix2 p n) + ·) (Finset.sum_congr rfl fun j _ => ?_)
  rw [pay8_apply, truncf_apply]

/-- The zero block at any entry. -/
theorem zeroBlk_apply (y : S2048x512.Idx) : zeroBlk (F := Ideal) y = 0 := by
  unfold zeroBlk
  rw [broadcast_apply]
  exact Ideal.ofBits_zero_f32

/-- What the last point of a run stores in the output block, entry by entry: the four accumulators through the
    logistic function, combined with the cell state's block. -/
theorem pay3_apply (a0 a1 a2 a3 cs : Vec Ideal S2048x512 .f32) (y : S2048x512.Idx) :
    k0_pay3 (F := Ideal) a0 a1 a2 a3 cs y = Cert.Spec.combine (a0 y) (a1 y) (a2 y) (a3 y) (cs y) := rfl

end Cert.KernelIdeal.Pay

end
-- ==== Proof.Pieces.lean ====
/-
  What each of the body's three control cases leaves in the four accumulators and in the output block, as values.

  A run of 16 consecutive grid points shares one output block. Its first point (reduction coordinate 0) stores the
  zero block in every accumulator, reads it back and adds its product; every later point adds its product to what
  the point before left; the last point (reduction coordinate 15), after adding, also stores the output block: the
  four accumulators through the logistic function, combined with the cell state's block.
  Each statement reads the body's stores back: a store of a whole buffer leaves its payload, and a load of a whole
  buffer reads what the buffer holds.
-/
import proofs.«100656_j57303453663323_2_alg».proof.Proof.Gen.KernelIdeal.Frame
import proofs.«100656_j57303453663323_2_alg».proof.Proof.Payload
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.Pay Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-! ## The first point of a run: each accumulator is its product over the zero block -/

/-- The forget gate's accumulator after a run's first point. -/
theorem first_0 (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (hc0 : cond0_0 i) (hc1 : ¬cond0_1 i) (x0 : Vec F S2048x256 .f32) (x1 : Vec F S2048x256 .f32) (x2 : Vec F S512x256 .f32) (x3 : Vec F S512x256 .f32) (x4 : Vec F S512x256 .f32) (x5 : Vec F S512x256 .f32) (x6 : Vec F S2048x512 .f32) :
    sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = accStep i x0 x1 x2 (zeroBlk (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S2048x512) hz, View.readCov_unit_zero (S := S2048x512) _ hz]
  simp only [View.readAt_eq_ld, harg3.read_unread, harg4.read_unread, harg5.read_unread, View.ld_unit_zero (S := S2048x256) hz, View.ld_unit_zero (S := S512x256) hz]
  rw [pay4_eq]
  exact pay11_eq i x0 x1 x2 zeroBlk

/-- The input gate's accumulator after a run's first point. -/
theorem first_1 (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (hc0 : cond0_0 i) (hc1 : ¬cond0_1 i) (x0 : Vec F S2048x256 .f32) (x1 : Vec F S2048x256 .f32) (x2 : Vec F S512x256 .f32) (x3 : Vec F S512x256 .f32) (x4 : Vec F S512x256 .f32) (x5 : Vec F S512x256 .f32) (x6 : Vec F S2048x512 .f32) :
    sout0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = accStep i x0 x1 x3 (zeroBlk (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S2048x512) hz, View.readCov_unit_zero (S := S2048x512) _ hz]
  simp only [View.readAt_eq_ld, harg3.read_unread, harg4.read_unread, harg6.read_unread, View.ld_unit_zero (S := S2048x256) hz, View.ld_unit_zero (S := S512x256) hz]
  rw [pay5_eq]
  exact pay12_eq i x0 x1 x3 zeroBlk

/-- The candidate gate's accumulator after a run's first point. -/
theorem first_2 (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (hc0 : cond0_0 i) (hc1 : ¬cond0_1 i) (x0 : Vec F S2048x256 .f32) (x1 : Vec F S2048x256 .f32) (x2 : Vec F S512x256 .f32) (x3 : Vec F S512x256 .f32) (x4 : Vec F S512x256 .f32) (x5 : Vec F S512x256 .f32) (x6 : Vec F S2048x512 .f32) :
    sout0_A_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = accStep i x0 x1 x4 (zeroBlk (F := F)) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S2048x512) hz, View.readCov_unit_zero (S := S2048x512) _ hz]
  simp only [View.readAt_eq_ld, harg3.read_unread, harg4.read_unread, harg7.read_unread, View.ld_unit_zero (S := S2048x256) hz, View.ld_unit_zero (S := S512x256) hz]
  rw [pay6_eq]
  exact pay1_eq i x0 x1 x4 zeroBlk

/-- The output gate's accumulator after a run's first point. -/
theorem first_3 (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (hc0 : cond0_0 i) (hc1 : ¬cond0_1 i) (x0 : Vec F S2048x256 .f32) (x1 : Vec F S2048x256 .f32) (x2 : Vec F S512x256 .f32) (x3 : Vec F S512x256 .f32) (x4 : Vec F S512x256 .f32) (x5 : Vec F S512x256 .f32) (x6 : Vec F S2048x512 .f32) :
    sout0_A_3 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = accStep i x0 x1 x5 (zeroBlk (F := F)) := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S2048x512) hz, View.readCov_unit_zero (S := S2048x512) _ hz]
  simp only [View.readAt_eq_ld, harg3.read_unread, harg4.read_unread, harg8.read_unread, View.ld_unit_zero (S := S2048x256) hz, View.ld_unit_zero (S := S512x256) hz]
  rw [pay7_eq]
  exact pay2_eq i x0 x1 x5 zeroBlk

/-! ## A later point that is not the last: each accumulator gains its product -/

/-- The forget gate's accumulator after a point strictly inside a run, over what the point before left (`xs0`). -/
theorem mid_0 (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (hc0 : ¬cond0_0 i) (hc1 : ¬cond0_1 i) (x0 : Vec F S2048x256 .f32) (x1 : Vec F S2048x256 .f32) (x2 : Vec F S512x256 .f32) (x3 : Vec F S512x256 .f32) (x4 : Vec F S512x256 .f32) (x5 : Vec F S512x256 .f32) (x6 : Vec F S2048x512 .f32) (xs0 : Vec F S2048x512 .f32) (xs1 : Vec F S2048x512 .f32) (xs2 : Vec F S2048x512 .f32) (xs3 : Vec F S2048x512 .f32) :
    sout0_B_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = accStep i x0 x1 x2 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_B
  dsimp only
  try sl_unfold_words
  rw [View.canon_unit_zero hz]
  simp only [View.readAt_eq_ld, harg3.read_unread, harg4.read_unread, harg5.read_unread, harg11.read_unread, View.ld_unit_zero (S := S2048x256) hz, View.ld_unit_zero (S := S512x256) hz, View.ld_unit_zero (S := S2048x512) hz]
  exact pay11_eq i x0 x1 x2 xs0

/-- The input gate's accumulator after a point strictly inside a run, over what the point before left (`xs1`). -/
theorem mid_1 (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (hc0 : ¬cond0_0 i) (hc1 : ¬cond0_1 i) (x0 : Vec F S2048x256 .f32) (x1 : Vec F S2048x256 .f32) (x2 : Vec F S512x256 .f32) (x3 : Vec F S512x256 .f32) (x4 : Vec F S512x256 .f32) (x5 : Vec F S512x256 .f32) (x6 : Vec F S2048x512 .f32) (xs0 : Vec F S2048x512 .f32) (xs1 : Vec F S2048x512 .f32) (xs2 : Vec F S2048x512 .f32) (xs3 : Vec F S2048x512 .f32) :
    sout0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = accStep i x0 x1 x3 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_B
  dsimp only
  try sl_unfold_words
  rw [View.canon_unit_zero hz]
  simp only [View.readAt_eq_ld, harg3.read_unread, harg4.read_unread, harg6.read_unread, harg12.read_unread, View.ld_unit_zero (S := S2048x256) hz, View.ld_unit_zero (S := S512x256) hz, View.ld_unit_zero (S := S2048x512) hz]
  exact pay12_eq i x0 x1 x3 xs1

/-- The candidate gate's accumulator after a point strictly inside a run, over what the point before left (`xs2`). -/
theorem mid_2 (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (hc0 : ¬cond0_0 i) (hc1 : ¬cond0_1 i) (x0 : Vec F S2048x256 .f32) (x1 : Vec F S2048x256 .f32) (x2 : Vec F S512x256 .f32) (x3 : Vec F S512x256 .f32) (x4 : Vec F S512x256 .f32) (x5 : Vec F S512x256 .f32) (x6 : Vec F S2048x512 .f32) (xs0 : Vec F S2048x512 .f32) (xs1 : Vec F S2048x512 .f32) (xs2 : Vec F S2048x512 .f32) (xs3 : Vec F S2048x512 .f32) :
    sout0_B_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = accStep i x0 x1 x4 xs2 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_B
  dsimp only
  try sl_unfold_words
  rw [View.canon_unit_zero hz]
  simp only [View.readAt_eq_ld, harg3.read_unread, harg4.read_unread, harg7.read_unread, harg13.read_unread, View.ld_unit_zero (S := S2048x256) hz, View.ld_unit_zero (S := S512x256) hz, View.ld_unit_zero (S := S2048x512) hz]
  exact pay1_eq i x0 x1 x4 xs2

/-- The output gate's accumulator after a point strictly inside a run, over what the point before left (`xs3`). -/
theorem mid_3 (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (hc0 : ¬cond0_0 i) (hc1 : ¬cond0_1 i) (x0 : Vec F S2048x256 .f32) (x1 : Vec F S2048x256 .f32) (x2 : Vec F S512x256 .f32) (x3 : Vec F S512x256 .f32) (x4 : Vec F S512x256 .f32) (x5 : Vec F S512x256 .f32) (x6 : Vec F S2048x512 .f32) (xs0 : Vec F S2048x512 .f32) (xs1 : Vec F S2048x512 .f32) (xs2 : Vec F S2048x512 .f32) (xs3 : Vec F S2048x512 .f32) :
    sout0_B_3 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = accStep i x0 x1 x5 xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_B
  dsimp only
  try sl_unfold_words
  rw [View.canon_unit_zero hz]
  simp only [View.readAt_eq_ld, harg3.read_unread, harg4.read_unread, harg8.read_unread, harg14.read_unread, View.ld_unit_zero (S := S2048x256) hz, View.ld_unit_zero (S := S512x256) hz, View.ld_unit_zero (S := S2048x512) hz]
  exact pay2_eq i x0 x1 x5 xs3

/-! ## The last point of a run: the same for the accumulators, and the output block -/

/-- The forget gate's accumulator after a run's last point, over what the point before left (`xs0`). -/
theorem last_0 (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (hc0 : ¬cond0_0 i) (hc1 : cond0_1 i) (x0 : Vec F S2048x256 .f32) (x1 : Vec F S2048x256 .f32) (x2 : Vec F S512x256 .f32) (x3 : Vec F S512x256 .f32) (x4 : Vec F S512x256 .f32) (x5 : Vec F S512x256 .f32) (x6 : Vec F S2048x512 .f32) (xs0 : Vec F S2048x512 .f32) (xs1 : Vec F S2048x512 .f32) (xs2 : Vec F S2048x512 .f32) (xs3 : Vec F S2048x512 .f32) :
    sout0_C_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = accStep i x0 x1 x2 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_C
  dsimp only
  try sl_unfold_words
  rw [View.canon_unit_zero hz]
  simp only [View.readAt_eq_ld, harg3.read_unread, harg4.read_unread, harg5.read_unread, harg11.read_unread, View.ld_unit_zero (S := S2048x256) hz, View.ld_unit_zero (S := S512x256) hz, View.ld_unit_zero (S := S2048x512) hz]
  exact pay11_eq i x0 x1 x2 xs0

/-- The input gate's accumulator after a run's last point, over what the point before left (`xs1`). -/
theorem last_1 (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (hc0 : ¬cond0_0 i) (hc1 : cond0_1 i) (x0 : Vec F S2048x256 .f32) (x1 : Vec F S2048x256 .f32) (x2 : Vec F S512x256 .f32) (x3 : Vec F S512x256 .f32) (x4 : Vec F S512x256 .f32) (x5 : Vec F S512x256 .f32) (x6 : Vec F S2048x512 .f32) (xs0 : Vec F S2048x512 .f32) (xs1 : Vec F S2048x512 .f32) (xs2 : Vec F S2048x512 .f32) (xs3 : Vec F S2048x512 .f32) :
    sout0_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = accStep i x0 x1 x3 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_C
  dsimp only
  try sl_unfold_words
  rw [View.canon_unit_zero hz]
  simp only [View.readAt_eq_ld, harg3.read_unread, harg4.read_unread, harg6.read_unread, harg12.read_unread, View.ld_unit_zero (S := S2048x256) hz, View.ld_unit_zero (S := S512x256) hz, View.ld_unit_zero (S := S2048x512) hz]
  exact pay12_eq i x0 x1 x3 xs1

/-- The candidate gate's accumulator after a run's last point, over what the point before left (`xs2`). -/
theorem last_2 (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (hc0 : ¬cond0_0 i) (hc1 : cond0_1 i) (x0 : Vec F S2048x256 .f32) (x1 : Vec F S2048x256 .f32) (x2 : Vec F S512x256 .f32) (x3 : Vec F S512x256 .f32) (x4 : Vec F S512x256 .f32) (x5 : Vec F S512x256 .f32) (x6 : Vec F S2048x512 .f32) (xs0 : Vec F S2048x512 .f32) (xs1 : Vec F S2048x512 .f32) (xs2 : Vec F S2048x512 .f32) (xs3 : Vec F S2048x512 .f32) :
    sout0_C_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = accStep i x0 x1 x4 xs2 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_C
  dsimp only
  try sl_unfold_words
  rw [View.canon_unit_zero hz]
  simp only [View.readAt_eq_ld, harg3.read_unread, harg4.read_unread, harg7.read_unread, harg13.read_unread, View.ld_unit_zero (S := S2048x256) hz, View.ld_unit_zero (S := S512x256) hz, View.ld_unit_zero (S := S2048x512) hz]
  exact pay1_eq i x0 x1 x4 xs2

/-- The output gate's accumulator after a run's last point, over what the point before left (`xs3`). -/
theorem last_3 (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (hc0 : ¬cond0_0 i) (hc1 : cond0_1 i) (x0 : Vec F S2048x256 .f32) (x1 : Vec F S2048x256 .f32) (x2 : Vec F S512x256 .f32) (x3 : Vec F S512x256 .f32) (x4 : Vec F S512x256 .f32) (x5 : Vec F S512x256 .f32) (x6 : Vec F S2048x512 .f32) (xs0 : Vec F S2048x512 .f32) (xs1 : Vec F S2048x512 .f32) (xs2 : Vec F S2048x512 .f32) (xs3 : Vec F S2048x512 .f32) :
    sout0_C_3 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = accStep i x0 x1 x5 xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_C
  dsimp only
  try sl_unfold_words
  rw [View.canon_unit_zero hz]
  simp only [View.readAt_eq_ld, harg3.read_unread, harg4.read_unread, harg8.read_unread, harg14.read_unread, View.ld_unit_zero (S := S2048x256) hz, View.ld_unit_zero (S := S512x256) hz, View.ld_unit_zero (S := S2048x512) hz]
  exact pay2_eq i x0 x1 x5 xs3

/-- The output block a run's last point stores: the four accumulators as that point leaves them, each through the
    logistic function, combined with the cell state's block `x6`. -/
theorem last_out (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (hc0 : ¬cond0_0 i) (hc1 : cond0_1 i) (x0 : Vec F S2048x256 .f32) (x1 : Vec F S2048x256 .f32) (x2 : Vec F S512x256 .f32) (x3 : Vec F S512x256 .f32) (x4 : Vec F S512x256 .f32) (x5 : Vec F S512x256 .f32) (x6 : Vec F S2048x512 .f32) (xs0 : Vec F S2048x512 .f32) (xs1 : Vec F S2048x512 .f32) (xs2 : Vec F S2048x512 .f32) (xs3 : Vec F S2048x512 .f32) :
    out0_C_7 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3
      = k0_pay3 (accStep i x0 x1 x2 xs0) (accStep i x0 x1 x3 xs1) (accStep i x0 x1 x4 xs2) (accStep i x0 x1 x5 xs3) x6 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_C
  dsimp only
  sl_unfold_words
  rw [View.canon_unit_zero hz]
  rw [View.readCov_unit_zero (S := S2048x512) arg11.view hz, View.readCov_unit_zero (S := S2048x512) arg12.view hz,
    View.readCov_unit_zero (S := S2048x512) arg13.view hz, View.readCov_unit_zero (S := S2048x512) arg14.view hz]
  simp only [View.readAt_eq_ld, harg3.read_unread, harg4.read_unread, harg5.read_unread, harg6.read_unread, harg7.read_unread,
    harg8.read_unread, harg9.read_unread, harg11.read_unread, harg12.read_unread, harg13.read_unread, harg14.read_unread,
    View.ld_unit_zero (S := S2048x256) hz, View.ld_unit_zero (S := S512x256) hz, View.ld_unit_zero (S := S2048x512) hz]
  rw [pay11_eq, pay12_eq, pay1_eq, pay2_eq]

end Cert.KernelIdeal.Pieces

end
-- ==== Proof.Blocks.lean ====
/-
  The blocks a grid point works on, read entry by entry off the argument arrays, and one point's update of an
  accumulator in the specification's terms.

  Point `t` of the 2 × 4 × 16 grid has batch coordinate `t / 64`, hidden coordinate `t / 16 % 4` and reduction
  coordinate `t % 16`. Its activation block is rows `2048 (t / 64) + ·` of `h`, columns `256 (t % 16) + ·`, while
  the reduction coordinate is below 8, and the same rows of `x`, columns `256 (t % 16 − 8) + ·`, from 8 on: in both
  cases columns `256 (t % 16) + ·` of `[h | x]`. Its weight blocks are rows `512 (t / 16 % 4) + ·`, columns
  `256 (t % 16) + ·` of the four weight matrices; its cell-state and output blocks rows `2048 (t / 64) + ·`, columns
  `512 (t / 16 % 4) + ·`. So the point adds stretch `t % 16` of the inner product to every accumulator entry.
-/
import proofs.«100656_j57303453663323_2_alg».proof.Proof.Gen.KernelIdeal.Frame
import proofs.«100656_j57303453663323_2_alg».proof.Proof.Payload
import proofs.«100656_j57303453663323_2_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.KernelIdeal.Pay Cert.Spec Idealize.ShloMosaic Idealize.ShloMosaic.TcCoe
  Idealize.ShloMosaic.ValueIdx Idealize.SL.Sem

variable (m : (ℓ : Loc nD τ sig) → Buf (Elt Ideal) ℓ)

/-- The argument arrays as matrices: `x`, `h`, the cell state, and the four weight matrices. -/
abbrev X (c : Dev nD) : Mat 4096 2048 := m ((c.tc : Thread nD τ).loc main_arg0)
abbrev H (c : Dev nD) : Mat 4096 2048 := m ((c.tc : Thread nD τ).loc main_arg1)
abbrev C (c : Dev nD) : Mat 4096 2048 := m ((c.tc : Thread nD τ).loc main_arg2)
abbrev W0 (c : Dev nD) : Mat 2048 4096 := m ((c.tc : Thread nD τ).loc main_arg3)
abbrev W1 (c : Dev nD) : Mat 2048 4096 := m ((c.tc : Thread nD τ).loc main_arg4)
abbrev W2 (c : Dev nD) : Mat 2048 4096 := m ((c.tc : Thread nD τ).loc main_arg5)
abbrev W3 (c : Dev nD) : Mat 2048 4096 := m ((c.tc : Thread nD τ).loc main_arg6)

/-! ## Where each window's block sits, decided once over the 128 grid points -/

theorem index_h : ∀ t : Fin cfg0.N, win0_0.index t 0 = t.val / 64 ∧ win0_0.index t 1 = (if t.val % 16 < 8 then t.val % 16 else 7) :=
  (by decide +kernel : ∀ t : Fin grid0.N, _)
theorem index_x : ∀ t : Fin cfg0.N, win0_1.index t 0 = t.val / 64 ∧ win0_1.index t 1 = t.val % 16 - 8 :=
  (by decide +kernel : ∀ t : Fin grid0.N, _)
theorem index_w0 : ∀ t : Fin cfg0.N, win0_2.index t 0 = t.val / 16 % 4 ∧ win0_2.index t 1 = t.val % 16 :=
  (by decide +kernel : ∀ t : Fin grid0.N, _)
theorem index_w1 : ∀ t : Fin cfg0.N, win0_3.index t 0 = t.val / 16 % 4 ∧ win0_3.index t 1 = t.val % 16 :=
  (by decide +kernel : ∀ t : Fin grid0.N, _)
theorem index_w2 : ∀ t : Fin cfg0.N, win0_4.index t 0 = t.val / 16 % 4 ∧ win0_4.index t 1 = t.val % 16 :=
  (by decide +kernel : ∀ t : Fin grid0.N, _)
theorem index_w3 : ∀ t : Fin cfg0.N, win0_5.index t 0 = t.val / 16 % 4 ∧ win0_5.index t 1 = t.val % 16 :=
  (by decide +kernel : ∀ t : Fin grid0.N, _)
theorem index_c : ∀ t : Fin cfg0.N, win0_6.index t 0 = t.val / 64 ∧ win0_6.index t 1 = t.val / 16 % 4 :=
  (by decide +kernel : ∀ t : Fin grid0.N, _)
theorem index_out : ∀ t : Fin cfg0.N, win0_7.index t 0 = t.val / 64 ∧ win0_7.index t 1 = t.val / 16 % 4 :=
  (by decide +kernel : ∀ t : Fin grid0.N, _)

/-- The body's comparison of the reduction coordinate with 8, in closed form. -/
theorem lt8_iff : ∀ t : Fin cfg0.N, Scalar.cmpi .slt (BitVec.ofNat 32 ((grid0.coords t) 2).val) 8#32 = 1#1 ↔ t.val % 16 < 8 :=
  (by decide +kernel : ∀ t : Fin grid0.N, _)

/-! ## The blocks, entry by entry -/

/-- The block of `h` at a point whose reduction coordinate is below 8. -/
theorem blk_h (c : Dev nD) (t : Fin cfg0.N) (hk : t.val % 16 < 8) (p : Fin 2048) (j : Fin 256) :
    (iblk m c 0 t : Vec Ideal S2048x256 .f32) (ix2 p j) = at2 (H m c) (t.val / 64 * 2048 + p.val) (t.val % 16 * 256 + j.val) := by
  have hN : cfg0.N = 128 := N_0
  have ht := t.isLt
  obtain ⟨i0, i1⟩ := index_h t
  rw [if_pos hk] at i1
  rw [at2_of_lt _ _ _ (by omega) (by omega)]
  unfold iblk
  rw [View.read_apply]
  show V m c main_arg1 _ = _
  unfold V
  congr 1
  funext a
  apply Fin.ext
  match a with
  | ⟨0, _⟩ => show win0_0.index t 0 * 2048 + 1 * p.val = t.val / 64 * 2048 + p.val; rw [i0]; omega
  | ⟨1, _⟩ => show win0_0.index t 1 * 256 + 1 * j.val = t.val % 16 * 256 + j.val; rw [i1]; omega

/-- The block of `x` at a point whose reduction coordinate is 8 or more. -/
theorem blk_x (c : Dev nD) (t : Fin cfg0.N) (hk : ¬t.val % 16 < 8) (p : Fin 2048) (j : Fin 256) :
    (iblk m c 1 t : Vec Ideal S2048x256 .f32) (ix2 p j) = at2 (X m c) (t.val / 64 * 2048 + p.val) (t.val % 16 * 256 + j.val - 2048) := by
  have hN : cfg0.N = 128 := N_0
  have ht := t.isLt
  obtain ⟨i0, i1⟩ := index_x t
  rw [at2_of_lt _ _ _ (by omega) (by omega)]
  unfold iblk
  rw [View.read_apply]
  show V m c main_arg0 _ = _
  unfold V
  congr 1
  funext a
  apply Fin.ext
  match a with
  | ⟨0, _⟩ => show win0_1.index t 0 * 2048 + 1 * p.val = t.val / 64 * 2048 + p.val; rw [i0]; omega
  | ⟨1, _⟩ => show win0_1.index t 1 * 256 + 1 * j.val = t.val % 16 * 256 + j.val - 2048; rw [i1]; omega

/-- The block of weight matrix 0 at a point. -/
theorem blk_w0 (c : Dev nD) (t : Fin cfg0.N) (q : Fin 512) (j : Fin 256) :
    (iblk m c 2 t : Vec Ideal S512x256 .f32) (ix2 q j) = at2 (W0 m c) (t.val / 16 % 4 * 512 + q.val) (t.val % 16 * 256 + j.val) := by
  have hN : cfg0.N = 128 := N_0
  have ht := t.isLt
  obtain ⟨i0, i1⟩ := index_w0 t
  rw [at2_of_lt _ _ _ (by omega) (by omega)]
  unfold iblk
  rw [View.read_apply]
  show V m c main_arg3 _ = _
  unfold V
  congr 1
  funext a
  apply Fin.ext
  match a with
  | ⟨0, _⟩ => show win0_2.index t 0 * 512 + 1 * q.val = t.val / 16 % 4 * 512 + q.val; rw [i0]; omega
  | ⟨1, _⟩ => show win0_2.index t 1 * 256 + 1 * j.val = t.val % 16 * 256 + j.val; rw [i1]; omega

/-- The block of weight matrix 1 at a point. -/
theorem blk_w1 (c : Dev nD) (t : Fin cfg0.N) (q : Fin 512) (j : Fin 256) :
    (iblk m c 3 t : Vec Ideal S512x256 .f32) (ix2 q j) = at2 (W1 m c) (t.val / 16 % 4 * 512 + q.val) (t.val % 16 * 256 + j.val) := by
  have hN : cfg0.N = 128 := N_0
  have ht := t.isLt
  obtain ⟨i0, i1⟩ := index_w1 t
  rw [at2_of_lt _ _ _ (by omega) (by omega)]
  unfold iblk
  rw [View.read_apply]
  show V m c main_arg4 _ = _
  unfold V
  congr 1
  funext a
  apply Fin.ext
  match a with
  | ⟨0, _⟩ => show win0_3.index t 0 * 512 + 1 * q.val = t.val / 16 % 4 * 512 + q.val; rw [i0]; omega
  | ⟨1, _⟩ => show win0_3.index t 1 * 256 + 1 * j.val = t.val % 16 * 256 + j.val; rw [i1]; omega

/-- The block of weight matrix 2 at a point. -/
theorem blk_w2 (c : Dev nD) (t : Fin cfg0.N) (q : Fin 512) (j : Fin 256) :
    (iblk m c 4 t : Vec Ideal S512x256 .f32) (ix2 q j) = at2 (W2 m c) (t.val / 16 % 4 * 512 + q.val) (t.val % 16 * 256 + j.val) := by
  have hN : cfg0.N = 128 := N_0
  have ht := t.isLt
  obtain ⟨i0, i1⟩ := index_w2 t
  rw [at2_of_lt _ _ _ (by omega) (by omega)]
  unfold iblk
  rw [View.read_apply]
  show V m c main_arg5 _ = _
  unfold V
  congr 1
  funext a
  apply Fin.ext
  match a with
  | ⟨0, _⟩ => show win0_4.index t 0 * 512 + 1 * q.val = t.val / 16 % 4 * 512 + q.val; rw [i0]; omega
  | ⟨1, _⟩ => show win0_4.index t 1 * 256 + 1 * j.val = t.val % 16 * 256 + j.val; rw [i1]; omega

/-- The block of weight matrix 3 at a point. -/
theorem blk_w3 (c : Dev nD) (t : Fin cfg0.N) (q : Fin 512) (j : Fin 256) :
    (iblk m c 5 t : Vec Ideal S512x256 .f32) (ix2 q j) = at2 (W3 m c) (t.val / 16 % 4 * 512 + q.val) (t.val % 16 * 256 + j.val) := by
  have hN : cfg0.N = 128 := N_0
  have ht := t.isLt
  obtain ⟨i0, i1⟩ := index_w3 t
  rw [at2_of_lt _ _ _ (by omega) (by omega)]
  unfold iblk
  rw [View.read_apply]
  show V m c main_arg6 _ = _
  unfold V
  congr 1
  funext a
  apply Fin.ext
  match a with
  | ⟨0, _⟩ => show win0_5.index t 0 * 512 + 1 * q.val = t.val / 16 % 4 * 512 + q.val; rw [i0]; omega
  | ⟨1, _⟩ => show win0_5.index t 1 * 256 + 1 * j.val = t.val % 16 * 256 + j.val; rw [i1]; omega

/-- The block of the cell state at a point. -/
theorem blk_c (c : Dev nD) (t : Fin cfg0.N) (p : Fin 2048) (q : Fin 512) :
    (iblk m c 6 t : Vec Ideal S2048x512 .f32) (ix2 p q) = at2 (C m c) (t.val / 64 * 2048 + p.val) (t.val / 16 % 4 * 512 + q.val) := by
  have hN : cfg0.N = 128 := N_0
  have ht := t.isLt
  obtain ⟨i0, i1⟩ := index_c t
  rw [at2_of_lt _ _ _ (by omega) (by omega)]
  unfold iblk
  rw [View.read_apply]
  show V m c main_arg2 _ = _
  unfold V
  congr 1
  funext a
  apply Fin.ext
  match a with
  | ⟨0, _⟩ => show win0_6.index t 0 * 2048 + 1 * p.val = t.val / 64 * 2048 + p.val; rw [i0]; omega
  | ⟨1, _⟩ => show win0_6.index t 1 * 512 + 1 * q.val = t.val / 16 % 4 * 512 + q.val; rw [i1]; omega

/-! ## One point's update, in the specification's terms -/

/-- The activation block a point multiplies is its stretch of `[h | x]`. -/
theorem act_apply (c : Dev nD) (t : Fin cfg0.N) (p : Fin 2048) (j : Fin 256) :
    (if Scalar.cmpi .slt (BitVec.ofNat 32 ((grid0.coords t) 2).val) 8#32 = 1#1
        then (iblk m c 0 t : Vec Ideal S2048x256 .f32) (ix2 p j) else (iblk m c 1 t : Vec Ideal S2048x256 .f32) (ix2 p j))
      = hx (X m c) (H m c) (t.val / 64 * 2048 + p.val) (t.val % 16 * 256 + j.val) := by
  have hj := j.isLt
  unfold hx
  by_cases hk : t.val % 16 < 8
  · rw [if_pos ((lt8_iff t).mpr hk), if_pos (by omega), blk_h m c t hk]
  · rw [if_neg (fun h => hk ((lt8_iff t).mp h)), if_neg (by omega), blk_x m c t hk]

/-- An update whose activation block is stretch `k` of row `r` of `[h | x]` and whose weight block is stretch `k` of
    row `n` of `W` adds stretch `k` of their inner product. -/
theorem accStep_stretch (i : grid0.Coords) (x0 x1 : Vec Ideal S2048x256 .f32) (w : Vec Ideal S512x256 .f32)
    (acc : Vec Ideal S2048x512 .f32) (p : Fin 2048) (q : Fin 512) (Xm Hm : Mat 4096 2048) (W : Mat 2048 4096) (r n k : ℕ)
    (ha : ∀ j : Fin 256, (if Scalar.cmpi .slt (BitVec.ofNat 32 (i 2).val) 8#32 = 1#1 then x0 (ix2 p j) else x1 (ix2 p j))
      = hx Xm Hm r (k * 256 + j.val))
    (hw : ∀ j : Fin 256, w (ix2 q j) = at2 W n (k * 256 + j.val)) :
    accStep (F := Ideal) i x0 x1 w acc (ix2 p q) = acc (ix2 p q) + stretch Xm Hm W r n k := by
  rw [accStep_apply]
  unfold stretch
  exact congrArg (acc (ix2 p q) + ·) (Finset.sum_congr rfl fun j _ => by rw [ha j, hw j])

/-- Point `t` adds stretch `t % 16` to the accumulator of weight matrix 0. -/
theorem step_w0 (c : Dev nD) (t : Fin cfg0.N) (acc : Vec Ideal S2048x512 .f32) (p : Fin 2048) (q : Fin 512) :
    accStep (F := Ideal) (grid0.coords t) (iblk m c 0 t) (iblk m c 1 t) (iblk m c 2 t) acc (ix2 p q)
      = acc (ix2 p q) + stretch (X m c) (H m c) (W0 m c) (t.val / 64 * 2048 + p.val) (t.val / 16 % 4 * 512 + q.val) (t.val % 16) :=
  accStep_stretch (grid0.coords t) (iblk m c 0 t) (iblk m c 1 t) (iblk m c 2 t) acc p q (X m c) (H m c) (W0 m c)
    (t.val / 64 * 2048 + p.val) (t.val / 16 % 4 * 512 + q.val) (t.val % 16) (act_apply m c t p) (blk_w0 m c t q)

/-- Point `t` adds stretch `t % 16` to the accumulator of weight matrix 1. -/
theorem step_w1 (c : Dev nD) (t : Fin cfg0.N) (acc : Vec Ideal S2048x512 .f32) (p : Fin 2048) (q : Fin 512) :
    accStep (F := Ideal) (grid0.coords t) (iblk m c 0 t) (iblk m c 1 t) (iblk m c 3 t) acc (ix2 p q)
      = acc (ix2 p q) + stretch (X m c) (H m c) (W1 m c) (t.val / 64 * 2048 + p.val) (t.val / 16 % 4 * 512 + q.val) (t.val % 16) :=
  accStep_stretch (grid0.coords t) (iblk m c 0 t) (iblk m c 1 t) (iblk m c 3 t) acc p q (X m c) (H m c) (W1 m c)
    (t.val / 64 * 2048 + p.val) (t.val / 16 % 4 * 512 + q.val) (t.val % 16) (act_apply m c t p) (blk_w1 m c t q)

/-- Point `t` adds stretch `t % 16` to the accumulator of weight matrix 2. -/
theorem step_w2 (c : Dev nD) (t : Fin cfg0.N) (acc : Vec Ideal S2048x512 .f32) (p : Fin 2048) (q : Fin 512) :
    accStep (F := Ideal) (grid0.coords t) (iblk m c 0 t) (iblk m c 1 t) (iblk m c 4 t) acc (ix2 p q)
      = acc (ix2 p q) + stretch (X m c) (H m c) (W2 m c) (t.val / 64 * 2048 + p.val) (t.val / 16 % 4 * 512 + q.val) (t.val % 16) :=
  accStep_stretch (grid0.coords t) (iblk m c 0 t) (iblk m c 1 t) (iblk m c 4 t) acc p q (X m c) (H m c) (W2 m c)
    (t.val / 64 * 2048 + p.val) (t.val / 16 % 4 * 512 + q.val) (t.val % 16) (act_apply m c t p) (blk_w2 m c t q)

/-- Point `t` adds stretch `t % 16` to the accumulator of weight matrix 3. -/
theorem step_w3 (c : Dev nD) (t : Fin cfg0.N) (acc : Vec Ideal S2048x512 .f32) (p : Fin 2048) (q : Fin 512) :
    accStep (F := Ideal) (grid0.coords t) (iblk m c 0 t) (iblk m c 1 t) (iblk m c 5 t) acc (ix2 p q)
      = acc (ix2 p q) + stretch (X m c) (H m c) (W3 m c) (t.val / 64 * 2048 + p.val) (t.val / 16 % 4 * 512 + q.val) (t.val % 16) :=
  accStep_stretch (grid0.coords t) (iblk m c 0 t) (iblk m c 1 t) (iblk m c 5 t) acc p q (X m c) (H m c) (W3 m c)
    (t.val / 64 * 2048 + p.val) (t.val / 16 % 4 * 512 + q.val) (t.val % 16) (act_apply m c t p) (blk_w3 m c t q)

end Cert.KernelIdeal.Blocks

end
-- ==== Proof.Invariant.lean ====
/-
  What the four accumulators hold after each grid point: the inner product's stretches `0 … t % 16`.

  By induction on the point. A run's first point (`t % 16 = 0`) leaves stretch 0 over the zero block; every other
  point adds stretch `t % 16` to what the point before — of the same run, so with the same batch and hidden
  coordinates — left.
-/
import proofs.«100656_j57303453663323_2_alg».proof.Proof.Gen.KernelIdeal.Frame
import proofs.«100656_j57303453663323_2_alg».proof.Proof.Pieces
import proofs.«100656_j57303453663323_2_alg».proof.Proof.Blocks

set_option maxRecDepth 16384

noncomputable section

namespace Cert.KernelIdeal.Inv

open Cert.KernelIdeal Cert.KernelIdeal.Gen Cert.KernelIdeal.Pay Cert.KernelIdeal.Pieces Cert.KernelIdeal.Blocks Cert.Spec
  Idealize.ShloMosaic Idealize.ShloMosaic.TcCoe Idealize.ShloMosaic.ValueIdx Idealize.SL.Sem

variable (m : (ℓ : Loc nD τ sig) → Buf (Elt Ideal) ℓ)

/-- The forget gate's accumulator after point `n`: entry `(p, q)` is the first `n % 16 + 1` stretches of the
    inner product of row `2048 (n / 64) + p` of `[h | x]` with row `512 (n / 16 % 4) + q` of its weight matrix. -/
theorem acc0_eq (c : Dev nD) : ∀ (n : ℕ) (h : n < cfg0.N) (p : Fin 2048) (q : Fin 512),
    (outsAt0 m c n h).2.1 (ix2 p q)
      = upTo (X m c) (H m c) (W0 m c) (n / 64 * 2048 + p.val) (n / 16 % 4 * 512 + q.val) (n % 16 + 1) := by
  intro n
  induction n using Nat.strong_induction_on with
  | _ n ih =>
    intro h p q
    have hN : cfg0.N = 128 := N_0
    by_cases h0 : n % 16 = 0
    · have h1 : ¬n % 16 = 15 := by omega
      rw [outsAt0_A m c (⟨n, h⟩ : Fin cfg0.N) h0 h1]
      dsimp only
      rw [first_0 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) scM0_1 (Memref.isWhole_whole _) scM0_2 (Memref.isWhole_whole _) scM0_3 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N))]
      rw [step_w0 m c (⟨n, h⟩ : Fin cfg0.N) (zeroBlk (F := Ideal)) p q, zeroBlk_apply, zero_add]
      show stretch _ _ _ _ _ (n % 16) = _
      rw [h0]
      exact (upTo_one _ _ _ _ _).symm
    · have hprev := ih (n - 1) (by omega) (by omega) p q
      rw [show (n - 1) / 64 = n / 64 by omega, show (n - 1) / 16 % 4 = n / 16 % 4 by omega, show (n - 1) % 16 + 1 = n % 16 by omega] at hprev
      by_cases h1 : n % 16 = 15
      · rw [outsAt0_C m c (⟨n, h⟩ : Fin cfg0.N) h0 h1]
        dsimp only
        rw [last_0 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2.1 (outsAt0 m c ((⟨n, h⟩ : Fin cfg0.N).val - 1) (Nat.lt_of_le_of_lt (Nat.sub_le _ _) (⟨n, h⟩ : Fin cfg0.N).isLt)).2.2.2.2]
        rw [step_w0 m c (⟨n, h⟩ : Fin cfg0.N) _ p q]
        show (outsAt0 m c (n - 1) _).2.1 (ix2 p q) + stretch _ _ _ _ _ (n % 16) = _
        rw [hprev]
        exact (upTo_succ _ _ _ _ _ _).symm
      · rw [outsAt0_B m c (⟨n, h⟩ : Fin cfg0.N) h0 h1]
        dsimp only
        rw [mid_0 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2.1 (outsAt0 m c ((⟨n, h⟩ : Fin cfg0.N).val - 1) (Nat.lt_of_le_of_lt (Nat.sub_le _ _) (⟨n, h⟩ : Fin cfg0.N).isLt)).2.2.2.2]
        rw [step_w0 m c (⟨n, h⟩ : Fin cfg0.N) _ p q]
        show (outsAt0 m c (n - 1) _).2.1 (ix2 p q) + stretch _ _ _ _ _ (n % 16) = _
        rw [hprev]
        exact (upTo_succ _ _ _ _ _ _).symm

/-- The input gate's accumulator after point `n`: entry `(p, q)` is the first `n % 16 + 1` stretches of the
    inner product of row `2048 (n / 64) + p` of `[h | x]` with row `512 (n / 16 % 4) + q` of its weight matrix. -/
theorem acc1_eq (c : Dev nD) : ∀ (n : ℕ) (h : n < cfg0.N) (p : Fin 2048) (q : Fin 512),
    (outsAt0 m c n h).2.2.1 (ix2 p q)
      = upTo (X m c) (H m c) (W1 m c) (n / 64 * 2048 + p.val) (n / 16 % 4 * 512 + q.val) (n % 16 + 1) := by
  intro n
  induction n using Nat.strong_induction_on with
  | _ n ih =>
    intro h p q
    have hN : cfg0.N = 128 := N_0
    by_cases h0 : n % 16 = 0
    · have h1 : ¬n % 16 = 15 := by omega
      rw [outsAt0_A m c (⟨n, h⟩ : Fin cfg0.N) h0 h1]
      dsimp only
      rw [first_1 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) scM0_1 (Memref.isWhole_whole _) scM0_2 (Memref.isWhole_whole _) scM0_3 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N))]
      rw [step_w1 m c (⟨n, h⟩ : Fin cfg0.N) (zeroBlk (F := Ideal)) p q, zeroBlk_apply, zero_add]
      show stretch _ _ _ _ _ (n % 16) = _
      rw [h0]
      exact (upTo_one _ _ _ _ _).symm
    · have hprev := ih (n - 1) (by omega) (by omega) p q
      rw [show (n - 1) / 64 = n / 64 by omega, show (n - 1) / 16 % 4 = n / 16 % 4 by omega, show (n - 1) % 16 + 1 = n % 16 by omega] at hprev
      by_cases h1 : n % 16 = 15
      · rw [outsAt0_C m c (⟨n, h⟩ : Fin cfg0.N) h0 h1]
        dsimp only
        rw [last_1 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2.1 (outsAt0 m c ((⟨n, h⟩ : Fin cfg0.N).val - 1) (Nat.lt_of_le_of_lt (Nat.sub_le _ _) (⟨n, h⟩ : Fin cfg0.N).isLt)).2.2.2.2]
        rw [step_w1 m c (⟨n, h⟩ : Fin cfg0.N) _ p q]
        show (outsAt0 m c (n - 1) _).2.2.1 (ix2 p q) + stretch _ _ _ _ _ (n % 16) = _
        rw [hprev]
        exact (upTo_succ _ _ _ _ _ _).symm
      · rw [outsAt0_B m c (⟨n, h⟩ : Fin cfg0.N) h0 h1]
        dsimp only
        rw [mid_1 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2.1 (outsAt0 m c ((⟨n, h⟩ : Fin cfg0.N).val - 1) (Nat.lt_of_le_of_lt (Nat.sub_le _ _) (⟨n, h⟩ : Fin cfg0.N).isLt)).2.2.2.2]
        rw [step_w1 m c (⟨n, h⟩ : Fin cfg0.N) _ p q]
        show (outsAt0 m c (n - 1) _).2.2.1 (ix2 p q) + stretch _ _ _ _ _ (n % 16) = _
        rw [hprev]
        exact (upTo_succ _ _ _ _ _ _).symm

/-- The candidate gate's accumulator after point `n`: entry `(p, q)` is the first `n % 16 + 1` stretches of the
    inner product of row `2048 (n / 64) + p` of `[h | x]` with row `512 (n / 16 % 4) + q` of its weight matrix. -/
theorem acc2_eq (c : Dev nD) : ∀ (n : ℕ) (h : n < cfg0.N) (p : Fin 2048) (q : Fin 512),
    (outsAt0 m c n h).2.2.2.1 (ix2 p q)
      = upTo (X m c) (H m c) (W2 m c) (n / 64 * 2048 + p.val) (n / 16 % 4 * 512 + q.val) (n % 16 + 1) := by
  intro n
  induction n using Nat.strong_induction_on with
  | _ n ih =>
    intro h p q
    have hN : cfg0.N = 128 := N_0
    by_cases h0 : n % 16 = 0
    · have h1 : ¬n % 16 = 15 := by omega
      rw [outsAt0_A m c (⟨n, h⟩ : Fin cfg0.N) h0 h1]
      dsimp only
      rw [first_2 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) scM0_1 (Memref.isWhole_whole _) scM0_2 (Memref.isWhole_whole _) scM0_3 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N))]
      rw [step_w2 m c (⟨n, h⟩ : Fin cfg0.N) (zeroBlk (F := Ideal)) p q, zeroBlk_apply, zero_add]
      show stretch _ _ _ _ _ (n % 16) = _
      rw [h0]
      exact (upTo_one _ _ _ _ _).symm
    · have hprev := ih (n - 1) (by omega) (by omega) p q
      rw [show (n - 1) / 64 = n / 64 by omega, show (n - 1) / 16 % 4 = n / 16 % 4 by omega, show (n - 1) % 16 + 1 = n % 16 by omega] at hprev
      by_cases h1 : n % 16 = 15
      · rw [outsAt0_C m c (⟨n, h⟩ : Fin cfg0.N) h0 h1]
        dsimp only
        rw [last_2 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2.1 (outsAt0 m c ((⟨n, h⟩ : Fin cfg0.N).val - 1) (Nat.lt_of_le_of_lt (Nat.sub_le _ _) (⟨n, h⟩ : Fin cfg0.N).isLt)).2.2.2.2]
        rw [step_w2 m c (⟨n, h⟩ : Fin cfg0.N) _ p q]
        show (outsAt0 m c (n - 1) _).2.2.2.1 (ix2 p q) + stretch _ _ _ _ _ (n % 16) = _
        rw [hprev]
        exact (upTo_succ _ _ _ _ _ _).symm
      · rw [outsAt0_B m c (⟨n, h⟩ : Fin cfg0.N) h0 h1]
        dsimp only
        rw [mid_2 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2.1 (outsAt0 m c ((⟨n, h⟩ : Fin cfg0.N).val - 1) (Nat.lt_of_le_of_lt (Nat.sub_le _ _) (⟨n, h⟩ : Fin cfg0.N).isLt)).2.2.2.2]
        rw [step_w2 m c (⟨n, h⟩ : Fin cfg0.N) _ p q]
        show (outsAt0 m c (n - 1) _).2.2.2.1 (ix2 p q) + stretch _ _ _ _ _ (n % 16) = _
        rw [hprev]
        exact (upTo_succ _ _ _ _ _ _).symm

/-- The output gate's accumulator after point `n`: entry `(p, q)` is the first `n % 16 + 1` stretches of the
    inner product of row `2048 (n / 64) + p` of `[h | x]` with row `512 (n / 16 % 4) + q` of its weight matrix. -/
theorem acc3_eq (c : Dev nD) : ∀ (n : ℕ) (h : n < cfg0.N) (p : Fin 2048) (q : Fin 512),
    (outsAt0 m c n h).2.2.2.2 (ix2 p q)
      = upTo (X m c) (H m c) (W3 m c) (n / 64 * 2048 + p.val) (n / 16 % 4 * 512 + q.val) (n % 16 + 1) := by
  intro n
  induction n using Nat.strong_induction_on with
  | _ n ih =>
    intro h p q
    have hN : cfg0.N = 128 := N_0
    by_cases h0 : n % 16 = 0
    · have h1 : ¬n % 16 = 15 := by omega
      rw [outsAt0_A m c (⟨n, h⟩ : Fin cfg0.N) h0 h1]
      dsimp only
      rw [first_3 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) scM0_1 (Memref.isWhole_whole _) scM0_2 (Memref.isWhole_whole _) scM0_3 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N))]
      rw [step_w3 m c (⟨n, h⟩ : Fin cfg0.N) (zeroBlk (F := Ideal)) p q, zeroBlk_apply, zero_add]
      show stretch _ _ _ _ _ (n % 16) = _
      rw [h0]
      exact (upTo_one _ _ _ _ _).symm
    · have hprev := ih (n - 1) (by omega) (by omega) p q
      rw [show (n - 1) / 64 = n / 64 by omega, show (n - 1) / 16 % 4 = n / 16 % 4 by omega, show (n - 1) % 16 + 1 = n % 16 by omega] at hprev
      by_cases h1 : n % 16 = 15
      · rw [outsAt0_C m c (⟨n, h⟩ : Fin cfg0.N) h0 h1]
        dsimp only
        rw [last_3 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2.1 (outsAt0 m c ((⟨n, h⟩ : Fin cfg0.N).val - 1) (Nat.lt_of_le_of_lt (Nat.sub_le _ _) (⟨n, h⟩ : Fin cfg0.N).isLt)).2.2.2.2]
        rw [step_w3 m c (⟨n, h⟩ : Fin cfg0.N) _ p q]
        show (outsAt0 m c (n - 1) _).2.2.2.2 (ix2 p q) + stretch _ _ _ _ _ (n % 16) = _
        rw [hprev]
        exact (upTo_succ _ _ _ _ _ _).symm
      · rw [outsAt0_B m c (⟨n, h⟩ : Fin cfg0.N) h0 h1]
        dsimp only
        rw [mid_3 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2.1 (outsAt0 m c ((⟨n, h⟩ : Fin cfg0.N).val - 1) (Nat.lt_of_le_of_lt (Nat.sub_le _ _) (⟨n, h⟩ : Fin cfg0.N).isLt)).2.2.2.2]
        rw [step_w3 m c (⟨n, h⟩ : Fin cfg0.N) _ p q]
        show (outsAt0 m c (n - 1) _).2.2.2.2 (ix2 p q) + stretch _ _ _ _ _ (n % 16) = _
        rw [hprev]
        exact (upTo_succ _ _ _ _ _ _).symm

end Cert.KernelIdeal.Inv

end
-- ==== Proof.KernelValue.lean ====
/-
  The kernel's result array after the run is the cell of Proof/Spec.lean.

  Only a run's last point (`t % 16 = 15`) writes its output block back. At that point every accumulator holds all
  16 stretches of its inner product — the gate's pre-activation for row `2048 (t / 64) + p` and unit
  `512 (t / 16 % 4) + q` — and the block stored is the cell's combination of the four with the cell state's block:
  the cell's entries `(2048 (t / 64) + p, 512 (t / 16 % 4) + q)`, which is that point's block of the cell. The eight
  such points' blocks tile the 4096 × 2048 array, so the array ends holding the cell.
-/
import proofs.«100656_j57303453663323_2_alg».proof.Proof.Gen.KernelIdeal.Value
import proofs.«100656_j57303453663323_2_alg».proof.Proof.Invariant

set_option maxRecDepth 16384

noncomputable section

namespace Cert.KernelIdeal.Out

open Cert.KernelIdeal Cert.KernelIdeal.Gen Cert.KernelIdeal.Pay Cert.KernelIdeal.Pieces Cert.KernelIdeal.Blocks Cert.KernelIdeal.Inv
  Cert.Spec Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The cell of the argument arrays, as contents of the result array. -/
def result (c : Dev nD) : Buf (Elt Ideal) ((c.tc : Thread nD τ).loc main_v0) :=
  cell (X m c) (H m c) (C m c) (W0 m c) (W1 m c) (W2 m c) (W3 m c)

/-- After a run's last point has added its stretch, the forget gate's accumulator holds the gate's pre-activation. -/
theorem full0 (c : Dev nD) (t : Fin cfg0.N) (h1 : t.val % 16 = 15) (p : Fin 2048) (q : Fin 512) :
    accStep (F := Ideal) (grid0.coords t) (iblk m c 0 t) (iblk m c 1 t) (iblk m c 2 t)
        (outsAt0 m c (t.val - 1) (Nat.lt_of_le_of_lt (Nat.sub_le _ _) t.isLt)).2.1 (ix2 p q)
      = gate (X m c) (H m c) (W0 m c) (t.val / 64 * 2048 + p.val) (t.val / 16 % 4 * 512 + q.val) := by
  have hN : cfg0.N = 128 := N_0
  have ht := t.isLt
  rw [step_w0 m c t _ p q, acc0_eq m c (t.val - 1) _ p q]
  rw [show (t.val - 1) / 64 = t.val / 64 by omega, show (t.val - 1) / 16 % 4 = t.val / 16 % 4 by omega,
    show (t.val - 1) % 16 + 1 = 15 by omega, h1]
  exact (upTo_succ _ _ _ _ _ 15).symm

/-- After a run's last point has added its stretch, the input gate's accumulator holds the gate's pre-activation. -/
theorem full1 (c : Dev nD) (t : Fin cfg0.N) (h1 : t.val % 16 = 15) (p : Fin 2048) (q : Fin 512) :
    accStep (F := Ideal) (grid0.coords t) (iblk m c 0 t) (iblk m c 1 t) (iblk m c 3 t)
        (outsAt0 m c (t.val - 1) (Nat.lt_of_le_of_lt (Nat.sub_le _ _) t.isLt)).2.2.1 (ix2 p q)
      = gate (X m c) (H m c) (W1 m c) (t.val / 64 * 2048 + p.val) (t.val / 16 % 4 * 512 + q.val) := by
  have hN : cfg0.N = 128 := N_0
  have ht := t.isLt
  rw [step_w1 m c t _ p q, acc1_eq m c (t.val - 1) _ p q]
  rw [show (t.val - 1) / 64 = t.val / 64 by omega, show (t.val - 1) / 16 % 4 = t.val / 16 % 4 by omega,
    show (t.val - 1) % 16 + 1 = 15 by omega, h1]
  exact (upTo_succ _ _ _ _ _ 15).symm

/-- After a run's last point has added its stretch, the candidate gate's accumulator holds the gate's pre-activation. -/
theorem full2 (c : Dev nD) (t : Fin cfg0.N) (h1 : t.val % 16 = 15) (p : Fin 2048) (q : Fin 512) :
    accStep (F := Ideal) (grid0.coords t) (iblk m c 0 t) (iblk m c 1 t) (iblk m c 4 t)
        (outsAt0 m c (t.val - 1) (Nat.lt_of_le_of_lt (Nat.sub_le _ _) t.isLt)).2.2.2.1 (ix2 p q)
      = gate (X m c) (H m c) (W2 m c) (t.val / 64 * 2048 + p.val) (t.val / 16 % 4 * 512 + q.val) := by
  have hN : cfg0.N = 128 := N_0
  have ht := t.isLt
  rw [step_w2 m c t _ p q, acc2_eq m c (t.val - 1) _ p q]
  rw [show (t.val - 1) / 64 = t.val / 64 by omega, show (t.val - 1) / 16 % 4 = t.val / 16 % 4 by omega,
    show (t.val - 1) % 16 + 1 = 15 by omega, h1]
  exact (upTo_succ _ _ _ _ _ 15).symm

/-- After a run's last point has added its stretch, the output gate's accumulator holds the gate's pre-activation. -/
theorem full3 (c : Dev nD) (t : Fin cfg0.N) (h1 : t.val % 16 = 15) (p : Fin 2048) (q : Fin 512) :
    accStep (F := Ideal) (grid0.coords t) (iblk m c 0 t) (iblk m c 1 t) (iblk m c 5 t)
        (outsAt0 m c (t.val - 1) (Nat.lt_of_le_of_lt (Nat.sub_le _ _) t.isLt)).2.2.2.2 (ix2 p q)
      = gate (X m c) (H m c) (W3 m c) (t.val / 64 * 2048 + p.val) (t.val / 16 % 4 * 512 + q.val) := by
  have hN : cfg0.N = 128 := N_0
  have ht := t.isLt
  rw [step_w3 m c t _ p q, acc3_eq m c (t.val - 1) _ p q]
  rw [show (t.val - 1) / 64 = t.val / 64 by omega, show (t.val - 1) / 16 % 4 = t.val / 16 % 4 by omega,
    show (t.val - 1) % 16 + 1 = 15 by omega, h1]
  exact (upTo_succ _ _ _ _ _ 15).symm

/-- What a run's last point writes back is that point's block of the cell. -/
theorem flushed_eq (c : Dev nD) (t : Fin cfg0.N) (hf : (cfg0.win 7).flush t = true) :
    (dats m 0 c).flushed 7 t = ((cfg0.win 7).blk t).view.read (Elt Ideal) (result m c) := by
  have hN : cfg0.N = 128 := N_0
  have ht := t.isLt
  have h1 : t.val % 16 = 15 := (flush0_7 t).mp hf
  have h0 : ¬t.val % 16 = 0 := by omega
  obtain ⟨i0, i1⟩ := index_out t
  rw [Cert.KernelIdeal.Value.flushed7_C m c t h0 h1]
  rw [last_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  funext y
  obtain ⟨p, q, rfl⟩ : ∃ (p : Fin 2048) (q : Fin 512), y = ix2 p q := ⟨y 0, y 1, eq_ix2 y⟩
  have hr : t.val / 64 * 2048 + p.val < 4096 := by omega
  have hn : t.val / 16 % 4 * 512 + q.val < 2048 := by omega
  have e : ((cfg0.win 7).blk t).view.emb (ix2 p q) = ix2 (⟨t.val / 64 * 2048 + p.val, hr⟩ : Fin 4096) (⟨t.val / 16 % 4 * 512 + q.val, hn⟩ : Fin 2048) :=
    funext fun a => Fin.ext (by
      match a with
      | ⟨0, _⟩ => show win0_7.index t 0 * 2048 + 1 * p.val = t.val / 64 * 2048 + p.val; rw [i0]; omega
      | ⟨1, _⟩ => show win0_7.index t 1 * 512 + 1 * q.val = t.val / 16 % 4 * 512 + q.val; rw [i1]; omega)
  rw [View.read_apply, e]
  show k0_pay3 (F := Ideal) _ _ _ _ (iblk m c 6 t) (ix2 p q)
    = combine (gate (X m c) (H m c) (W0 m c) (t.val / 64 * 2048 + p.val) (t.val / 16 % 4 * 512 + q.val))
        (gate (X m c) (H m c) (W1 m c) (t.val / 64 * 2048 + p.val) (t.val / 16 % 4 * 512 + q.val))
        (gate (X m c) (H m c) (W2 m c) (t.val / 64 * 2048 + p.val) (t.val / 16 % 4 * 512 + q.val))
        (gate (X m c) (H m c) (W3 m c) (t.val / 64 * 2048 + p.val) (t.val / 16 % 4 * 512 + q.val))
        (C m c (ix2 (⟨t.val / 64 * 2048 + p.val, hr⟩ : Fin 4096) (⟨t.val / 16 % 4 * 512 + q.val, hn⟩ : Fin 2048)))
  rw [pay3_apply, full0 m c t h1 p q, full1 m c t h1 p q, full2 m c t h1 p q, full3 m c t h1 p q, blk_c m c t p q,
    at2_of_lt _ _ _ hr hn]

/-- An entry of the array is in point `t`'s output block iff each coordinate is in the block's range. -/
theorem mem_blk (t : Fin cfg0.N) (i : S4096x2048.Idx) :
    i ∈ ((cfg0.win 7).blk t).view.set ↔ ∀ a : Fin 2, win0_7.index t a * S2048x512.size a ≤ (i a).val
      ∧ (i a).val < win0_7.index t a * S2048x512.size a + S2048x512.size a := by
  show i ∈ ((View.whole main_v0).slice (win0_7.rect t)).set ↔ _
  rw [View.set_slice_whole, Rect.mem_set_unit]
  exact Iff.rfl

/-- Entry `(r, n)` is in the block written back at the last point of the run with batch coordinate `r / 2048` and
    hidden coordinate `n / 512`. -/
theorem cover (i : S4096x2048.Idx) :
    ∃ t : Fin cfg0.N, (cfg0.win 7).flush t = true ∧ i ∈ ((cfg0.win 7).blk t).view.set := by
  have hN : cfg0.N = 128 := N_0
  have hi0 : (i 0).val < 4096 := (i 0).isLt
  have hi1 : (i 1).val < 2048 := (i 1).isLt
  let t : Fin cfg0.N := ⟨((i 0).val / 2048 * 4 + (i 1).val / 512) * 16 + 15, by omega⟩
  have tv : t.val = ((i 0).val / 2048 * 4 + (i 1).val / 512) * 16 + 15 := rfl
  obtain ⟨e0, e1⟩ := index_out t
  refine ⟨t, (flush0_7 t).mpr (by rw [tv]; omega), ?_⟩
  rw [mem_blk]
  intro a
  match a with
  | ⟨0, _⟩ =>
    show win0_7.index t 0 * 2048 ≤ (i 0).val ∧ (i 0).val < win0_7.index t 0 * 2048 + 2048
    rw [e0, tv]; omega
  | ⟨1, _⟩ =>
    show win0_7.index t 1 * 512 ≤ (i 1).val ∧ (i 1).val < win0_7.index t 1 * 512 + 512
    rw [e1, tv]; omega

/-- The result array after the run is the cell. -/
theorem final (c : Dev nD) : (dats m 0 c).arrAt 7 cfg0.N = result m c :=
  (dats m 0 c).arrAt_eq_of_cover 7 (result m c) (flushed_eq m c) cover

/-- The run, read: the result array at the cell of the arguments, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (final m c), (h c).2⟩) (Cert.KernelIdeal.Value.run_blocks m ρ)

end Cert.KernelIdeal.Out

end
-- ==== Proof.RefValue.lean ====
/-
  The reference computes the cell of Proof/Spec.lean, entry by entry.

  It lays `h` and `x` side by side, stacks the four weight matrices (8192 × 4096), transposes the stack and takes
  ONE product: entry `(r, 2048 g + n)` of that product is the inner product of row `r` of `[h | x]` with row `n`
  of weight matrix `g`. It then spells the logistic function as `1 / (1 + exp (−·))` (which is the ideal
  instance's own definition of it), cuts the four gates out as column ranges, and combines them with the cell state.
-/
import proofs.«100656_j57303453663323_2_alg».proof.Proof.Gen.ReferenceIdeal.Read
import proofs.«100656_j57303453663323_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Spec

variable (x0 x1 x2 : Mat 4096 2048) (x3 x4 x5 x6 : Mat 2048 4096)

/-- `[h | x]` at `(r, q)`: `h` for a position below 2048, `x` 2048 to the left otherwise. -/
theorem hcat_apply (r q : Fin 4096) : val_main_v0 (F := Ideal) x0 x1 (ix2 r q) = hx x0 x1 r.val q.val := by
  unfold val_main_v0 hx
  by_cases hq : q.val < 2048
  · rw [if_pos hq, at2_of_lt _ _ _ r.isLt hq]
    exact concatenate_pair_apply_left 1 x1 x0 _ (ix2 r q) rfl (ix2 r ⟨q.val, hq⟩) (fun b => by
      match b with
      | ⟨0, _⟩ => rfl
      | ⟨1, _⟩ => rfl)
  · have hq' : q.val - 2048 < 2048 := by have := q.isLt; omega
    rw [if_neg hq, at2_of_lt _ _ _ r.isLt hq']
    exact concatenate_pair_apply_right 1 x1 x0 _ (ix2 r q) rfl rfl (ix2 r ⟨q.val - 2048, hq'⟩)
      (fun b hb => by
        match b with
        | ⟨0, _⟩ => rfl
        | ⟨1, _⟩ => exact absurd rfl hb)
      (by show (q.val - 2048) + 2048 = q.val; omega)

/-- The stack of the four weight matrices at a row of its first quarter: the first matrix. -/
theorem wstack0 (n : Fin 2048) (q : Fin 4096) (j : S8192x4096.Idx) (h0 : (j 0).val = 0 + n.val) (h1 : (j 1).val = q.val) :
    val_main_v1 (F := Ideal) x3 x4 x5 x6 j = x3 (ix2 n q) := by
  unfold val_main_v1
  exact concatenate_apply_piece 0 _ _ j 0 (by show 0 < 4; omega) S2048x4096 x3 rfl rfl 0 rfl (ix2 n q)
    (fun b hb => by
      match b with
      | ⟨0, _⟩ => exact absurd rfl hb
      | ⟨1, _⟩ => exact h1.symm)
    (by show 0 + n.val = (j 0).val; omega)

/-- … of its second quarter: the second matrix. -/
theorem wstack1 (n : Fin 2048) (q : Fin 4096) (j : S8192x4096.Idx) (h0 : (j 0).val = 2048 + n.val) (h1 : (j 1).val = q.val) :
    val_main_v1 (F := Ideal) x3 x4 x5 x6 j = x4 (ix2 n q) := by
  unfold val_main_v1
  exact concatenate_apply_piece 0 _ _ j 1 (by show 1 < 4; omega) S2048x4096 x4 rfl rfl 2048 rfl (ix2 n q)
    (fun b hb => by
      match b with
      | ⟨0, _⟩ => exact absurd rfl hb
      | ⟨1, _⟩ => exact h1.symm)
    (by show 2048 + n.val = (j 0).val; omega)

/-- … of its third quarter: the third matrix. -/
theorem wstack2 (n : Fin 2048) (q : Fin 4096) (j : S8192x4096.Idx) (h0 : (j 0).val = 4096 + n.val) (h1 : (j 1).val = q.val) :
    val_main_v1 (F := Ideal) x3 x4 x5 x6 j = x5 (ix2 n q) := by
  unfold val_main_v1
  exact concatenate_apply_piece 0 _ _ j 2 (by show 2 < 4; omega) S2048x4096 x5 rfl rfl 4096 rfl (ix2 n q)
    (fun b hb => by
      match b with
      | ⟨0, _⟩ => exact absurd rfl hb
      | ⟨1, _⟩ => exact h1.symm)
    (by show 4096 + n.val = (j 0).val; omega)

/-- … of its last quarter: the fourth matrix. -/
theorem wstack3 (n : Fin 2048) (q : Fin 4096) (j : S8192x4096.Idx) (h0 : (j 0).val = 6144 + n.val) (h1 : (j 1).val = q.val) :
    val_main_v1 (F := Ideal) x3 x4 x5 x6 j = x6 (ix2 n q) := by
  unfold val_main_v1
  exact concatenate_apply_piece 0 _ _ j 3 (by show 3 < 4; omega) S2048x4096 x6 rfl rfl 6144 rfl (ix2 n q)
    (fun b hb => by
      match b with
      | ⟨0, _⟩ => exact absurd rfl hb
      | ⟨1, _⟩ => exact h1.symm)
    (by show 6144 + n.val = (j 0).val; omega)

/-- The one product at row `r`, column `off + n`, where the stack's rows `off + ·` are the matrix `W`: the gate's
    pre-activation for `W` — the plain sum over the 4096 positions, which is the stretch-by-stretch one. -/
theorem product_apply (off : ℕ) (W : Mat 2048 4096)
    (hW : ∀ (n : Fin 2048) (q : Fin 4096) (j : S8192x4096.Idx), (j 0).val = off + n.val → (j 1).val = q.val →
      val_main_v1 (F := Ideal) x3 x4 x5 x6 j = W (ix2 n q))
    (i : S4096x8192.Idx) (r : Fin 4096) (n : Fin 2048) (hi0 : (i 0).val = r.val) (hi1 : (i 1).val = off + n.val) :
    val_main_v3 (F := Ideal) x0 x1 x3 x4 x5 x6 i = gate x0 x1 W r.val n.val := by
  rw [val_main_v3_apply, gate_eq_sum]
  refine Finset.sum_congr rfl fun k _ => ?_
  have el : lidx_main_v3 i k = ix2 r k := funext fun a => Fin.ext (by
    match a with
    | ⟨0, _⟩ => exact hi0
    | ⟨1, _⟩ => rfl)
  rw [el, hcat_apply, val_main_v2_apply, at2_ix2 W n k]
  exact congrArg (hx x0 x1 r.val k.val * ·) (hW n k _ hi1 rfl)

/-- `1 / (1 + exp (−g))`, as the reference spells it, is the logistic function of `g`. -/
theorem logistic_apply (i : S4096x8192.Idx) :
    val_main_v9 (F := Ideal) x0 x1 x3 x4 x5 x6 i = Ideal.logistic (val_main_v3 (F := Ideal) x0 x1 x3 x4 x5 x6 i) := by
  rw [val_main_v9_apply, val_main_v8_apply, val_main_cst_0_apply, val_main_v7_apply, val_main_v6_apply, val_main_cst_apply,
    val_main_v5_apply, val_main_v4_apply]
  simp only [Ideal.hostDivf_def, Ideal.addf_def, Ideal.hostUnary_exp_def, Ideal.hostNegf_def, Ideal.negf_def, Ideal.ofBits_def,
    ofBits_one_f32]
  rfl

/-- The reference's result is the cell. -/
theorem result_eq : val_main_v18 (F := Ideal) x0 x1 x2 x3 x4 x5 x6 = cell x0 x1 x2 x3 x4 x5 x6 := by
  funext i
  rw [val_main_v18_apply, val_main_v13_apply, val_main_v17_apply, val_main_v16_apply, val_main_v14_apply, val_main_v15_apply,
    val_main_v10_apply, val_main_v11_apply, val_main_v12_apply, logistic_apply, logistic_apply, logistic_apply, logistic_apply]
  rw [product_apply x0 x1 x3 x4 x5 x6 6144 x6 (wstack3 x3 x4 x5 x6) (idx_main_v13 i) (i 0) (i 1) rfl rfl,
    product_apply x0 x1 x3 x4 x5 x6 0 x3 (wstack0 x3 x4 x5 x6) (idx_main_v10 i) (i 0) (i 1) rfl (by show (i 1).val = 0 + (i 1).val; omega),
    product_apply x0 x1 x3 x4 x5 x6 2048 x4 (wstack1 x3 x4 x5 x6) (idx_main_v11 i) (i 0) (i 1) rfl rfl,
    product_apply x0 x1 x3 x4 x5 x6 4096 x5 (wstack2 x3 x4 x5 x6) (idx_main_v12 i) (i 0) (i 1) rfl rfl]
  simp only [Ideal.mulf_def, Ideal.addf_def, Ideal.hostUnary_tanh_def]
  rfl

end Cert.ReferenceIdeal.RefValue

end
-- ==== Proof.lean ====
/-
  The kernel computes one step of an LSTM cell whose four gates are logistic: with `[h | x]` the 4096 × 4096 matrix of
  the previous hidden state beside the input, each gate's pre-activation is the product of `[h | x]` with the
  transpose of that gate's 2048 × 4096 weight matrix, and the new hidden state is
      `logistic(g_ol) · tanh(logistic(g_fg) · c + logistic(g_ig) · logistic(g_og))`.
  The kernel tiles the output into 2 × 4 blocks and, for each block, walks the 4096 positions of the inner product
  in 16 stretches of 256 — the first 8 read from `h`, the last 8 from `x` — adding each stretch's partial product
  to four accumulators; after the last stretch it applies the logistic functions and combines. The reference stacks
  the four weight matrices, takes one product, and spells the logistic function `1 / (1 + exp(−·))`.

  At the ideal instance the two are one function of the arguments, entry by entry (Proof/Spec.lean's `cell`):
  a sum over 4096 positions and the sum of its 16 stretches are equal by commutativity and associativity of the
  addition of extended reals alone, so no argument needs to be finite and the precondition is not opened; the
  logistic function is by definition `1 / (1 + exp(−·))`; narrowing a float is the identity there.

  Proof/KernelValue.lean: the kernel's result array is `cell` (by induction on the grid point over the accumulators,
  Proof/Invariant.lean). Proof/RefValue.lean: the reference's result is `cell`. The three frames: the kernel's are the
  generated frame runs, the reference's is its generated run with the result dropped. The ideal pass rewrote nothing,
  so the idealization claim is trivial.
-/
import proofs.«100656_j57303453663323_2_alg».proof.Defs
import proofs.«100656_j57303453663323_2_alg».proof.Proof.Gen.Kernel
import proofs.«100656_j57303453663323_2_alg».proof.Proof.Gen.Kernel.Skeleton
import proofs.«100656_j57303453663323_2_alg».proof.Proof.Gen.Kernel.Launch
import proofs.«100656_j57303453663323_2_alg».proof.Proof.Gen.Kernel.Points
import proofs.«100656_j57303453663323_2_alg».proof.Proof.Gen.Kernel.Frame
import proofs.«100656_j57303453663323_2_alg».proof.Proof.Gen.KernelIdeal
import proofs.«100656_j57303453663323_2_alg».proof.Proof.Gen.KernelIdeal.Skeleton
import proofs.«100656_j57303453663323_2_alg».proof.Proof.Gen.KernelIdeal.Launch
import proofs.«100656_j57303453663323_2_alg».proof.Proof.Gen.KernelIdeal.Points
import proofs.«100656_j57303453663323_2_alg».proof.Proof.Gen.KernelIdeal.Frame
import proofs.«100656_j57303453663323_2_alg».proof.Proof.Gen.ReferenceIdeal
import proofs.«100656_j57303453663323_2_alg».proof.Proof.Gen.Pre_finite_inputs
import proofs.«100656_j57303453663323_2_alg».proof.Proof.Gen.KernelIdeal.Value
import proofs.«100656_j57303453663323_2_alg».proof.Proof.Gen.ReferenceIdeal.Run
import proofs.«100656_j57303453663323_2_alg».proof.Proof.Gen.ReferenceIdeal.Read
import proofs.«100656_j57303453663323_2_alg».proof.Proof.SumBlocks
import proofs.«100656_j57303453663323_2_alg».proof.Proof.Spec
import proofs.«100656_j57303453663323_2_alg».proof.Proof.Payload
import proofs.«100656_j57303453663323_2_alg».proof.Proof.Pieces
import proofs.«100656_j57303453663323_2_alg».proof.Proof.Blocks
import proofs.«100656_j57303453663323_2_alg».proof.Proof.Invariant
import proofs.«100656_j57303453663323_2_alg».proof.Proof.KernelValue
import proofs.«100656_j57303453663323_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the cell of the arguments, which agree. -/
theorem algebraic : Cert.algebraic_KernelIdeal_ReferenceIdeal := by
  intro m ρ m' ρ' _ hagree
  refine ⟨fun c => Cert.KernelIdeal.Out.result m c, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
